-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x1152 : S_.BroadcastsInDim S512x1152 (![] : Fin 0 → Fin S512x1152.rank)
  reducesTo_S512x1152_S_d0_1 : S512x1152.ReducesTo [0, 1] S_
  bcast_S_S1152 : S_.BroadcastsInDim S1152 (![] : Fin 0 → Fin S1152.rank)
  reducesTo_S1152_S_d0 : S1152.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512 .f32) (main_arg9 : FVec F S512x128 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S512x1152 .f32) (main_arg6 : FVec F S1152 .f32) (main_arg7 : FVec F S512x512 .f32) (main_arg8 : FVec F S512 .f32) (main_arg9 : FVec F S512x128 .f32) (main_arg10 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1152 .f32 := Host.absf main_arg5
  let main_cst_6 : FVec F S_ .f32 := constant S_ .f32 0x7F800000#32
  let main_v20 : FVec F S512x1152 .f32 := broadcastInDim S512x1152 ![] bcast_S_S512x1152 main_cst_6
  let main_v21 : IVec S512x1152 1 := cmpf .olt main_v19 main_v20
  let main_c_7 : IVec S_ 1 := constantI S_ 1 1#1
  let main_v22 : IVec S_ 1 := (fun x v => Host.reduce IntOp.andi x v reducesTo_S512x1152_S_d0_1 h_S_) main_v21 main_c_7
  let main_v23 : IVec S_ 1 := andi main_v18 main_v22
  let main_v24 : FVec F S1152 .f32 := Host.absf main_arg6
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S200000x128 .f32) (main_arg2 : IVec S200000x2 32) (main_arg3 : FVec F S384x512 .f32) (main_arg4 : FVec F S512 .f32) (main_arg5 : FVec F S512x1152 .f32) (main_arg6 : FVec F S1152 .f32) (main_arg7 : FVec F S512x512 .f32) (main_arg8 : FVec F S512 .f32) (main_arg9 : FVec F S512x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x512 .f32 := Host.absf main_arg3
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S1x512 : Shape := ⟨2, ![1, 512]⟩
abbrev S1x1152 : Shape := ⟨2, ![1, 1152]⟩
abbrev S200000x1152 : Shape := ⟨2, ![200000, 1152]⟩
abbrev S2000x128 : Shape := ⟨2, ![2000, 128]⟩
abbrev S2000x1152 : Shape := ⟨2, ![2000, 1152]⟩
abbrev S2000x384 : Shape := ⟨2, ![2000, 384]⟩
abbrev S2000x512 : Shape := ⟨2, ![2000, 512]⟩
abbrev S200000x512 : Shape := ⟨2, ![200000, 512]⟩
abbrev S100000x512 : Shape := ⟨2, ![100000, 512]⟩
abbrev S100000 : Shape := ⟨1, ![100000]⟩
abbrev S100000x1 : Shape := ⟨2, ![100000, 1]⟩
abbrev S1x128 : Shape := ⟨2, ![1, 128]⟩

abbrev nBuf : Space → Nat
  | .hbm => 96
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S100000x128, .bf16⟩
  | .hbm, ⟨16, _⟩ => ⟨S200000x128, .bf16⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x128, .bf16⟩
  | .hbm, ⟨26, _⟩ => ⟨S_, .i32⟩
  | .hbm, ⟨27, _⟩ => ⟨S200000, .i32⟩
  | .hbm, ⟨28, _⟩ => ⟨S200000, .i1⟩
  | .hbm, ⟨29, _⟩ => ⟨S_, .i32⟩
  | .hbm, ⟨30, _⟩ => ⟨S200000, .i32⟩
  | .hbm, ⟨31, _⟩ => ⟨S200000, .i32⟩
  | .hbm, ⟨32, _⟩ => ⟨S200000, .i32⟩
  | .hbm, ⟨33, _⟩ => ⟨S200000x1, .i32⟩
  | .hbm, ⟨34, _⟩ => ⟨S200000x128, .bf16⟩
  | .hbm, ⟨35, _⟩ => ⟨S384x512, .bf16⟩
  | .hbm, ⟨36, _⟩ => ⟨S512x1152, .bf16⟩
  | .hbm, ⟨37, _⟩ => ⟨S1x512, .f32⟩
  | .hbm, ⟨38, _⟩ => ⟨S1x1152, .f32⟩
  | .hbm, ⟨39, _⟩ => ⟨S200000x1152, .f32⟩
  | .hbm, ⟨40, _⟩ => ⟨S200000x512, .f32⟩
  | .hbm, ⟨41, _⟩ => ⟨S200000x128, .f32⟩
  | .hbm, ⟨42, _⟩ => ⟨S200000x512, .f32⟩
  | .hbm, ⟨43, _⟩ => ⟨S_, .f32⟩
  | .hbm, ⟨44, _⟩ => ⟨S100000x512, .f32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S100000x512, .f32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S100000x512, .f32⟩
  | .hbm, ⟨63, _⟩ => ⟨S_, .f32⟩
  | .hbm, ⟨64, _⟩ => ⟨S200000, .f32⟩
  | .hbm, ⟨65, _⟩ => ⟨S_, .f32⟩
  | .hbm, ⟨66, _⟩ => ⟨S100000, .f32⟩
  | .hbm, ⟨67, _⟩ => ⟨S_, .i32⟩
  | .hbm, ⟨68, _⟩ => ⟨S200000, .i32⟩
  | .hbm, ⟨69, _⟩ => ⟨S200000, .i1⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S200000x1, .i32⟩
  | .hbm, ⟨75, _⟩ => ⟨S100000, .f32⟩
  | .hbm, ⟨76, _⟩ => ⟨S_, .i32⟩
  | .hbm, ⟨77, _⟩ => ⟨S200000, .i32⟩
  | .hbm, ⟨78, _⟩ => ⟨S200000, .i1⟩
  | .hbm, ⟨79, _⟩ => ⟨S_, .i32⟩
  | .hbm, ⟨80, _⟩ => ⟨S200000, .i32⟩
  | .hbm, ⟨81, _⟩ => ⟨S200000, .i32⟩
  | .hbm, ⟨82, _⟩ => ⟨S200000, .i32⟩
  | .hbm, ⟨83, _⟩ => ⟨S200000x1, .i32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x512, .f32⟩
  | .hbm, ⟨90, _⟩ => ⟨S100000x512, .f32⟩
  | .hbm, ⟨91, _⟩ => ⟨S512x512, .bf16⟩
  | .hbm, ⟨92, _⟩ => ⟨S512x128, .bf16⟩
  | .hbm, ⟨93, _⟩ => ⟨S1x512, .f32⟩
  | .hbm, ⟨94, _⟩ => ⟨S1x128, .f32⟩
  | .hbm, ⟨95, _⟩ => ⟨S100000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S384x512, .bf16⟩
  | .local _ .vmem, ⟨7, _⟩ => ⟨S1x512, .f32⟩
  | .local _ .vmem, ⟨8, _⟩ => ⟨S512x1152, .bf16⟩
  | .local _ .vmem, ⟨9, _⟩ => ⟨S1x1152, .f32⟩
  | .local _ .vmem, ⟨10, _⟩ => ⟨S2000x1152, .f32⟩
  | .local _ .vmem, ⟨11, _⟩ => ⟨S2000x1152, .f32⟩
  | .local _ .vmem, ⟨12, _⟩ => ⟨S2000x512, .f32⟩
  | .local _ .vmem, ⟨13, _⟩ => ⟨S2000x512, .f32⟩
  | .local _ .vmem, ⟨14, _⟩ => ⟨S512x512, .bf16⟩
  | .local _ .vmem, ⟨15, _⟩ => ⟨S1x512, .f32⟩
  | .local _ .vmem, ⟨16, _⟩ => ⟨S512x128, .bf16⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bitsLt_bf16_f32 : FTy.bits .bf16 < FTy.bits .f32
  bcast_S_S200000 : S_.BroadcastsInDim S200000 (![] : Fin 0 → Fin S200000.rank)
  bcast_S200000_S200000x1_0 : S200000.BroadcastsInDim S200000x1 (![0] : Fin 1 → Fin S200000x1.rank)
  shapeCasts_S512_S1x512 : S512.ShapeCasts S1x512
  shapeCasts_S1152_S1x1152 : S1152.ShapeCasts S1x1152
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S2000x1152 : S1x1152.Broadcasts S2000x1152
  inb_S2000x1152_S2000x1152_0_0 : ∀ a, (![0, 0] : Fin 2 → Nat) a + S2000x1152.size a ≤ S2000x1152.size a
  h_S2000x1152 : 0 < S2000x1152.numel
  slices_S200000x1152_S200000x512_0_0 : S200000x1152.Slices ![0, 0] S200000x512
  slices_S200000x1152_S200000x128_0_512 : S200000x1152.Slices ![0, 512] S200000x128
  slices_S200000x1152_S200000x512_0_640 : S200000x1152.Slices ![0, 640] S200000x512
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S200000x1_S200000x128_1_0_n_n_0_1_1128_wf : GatherDims.WF S100000x128 S200000x1 S200000x128 [1] [0] [] [0] [] 1 ![1, 128]
  dot_S2000x384_S384x512_S2000x512_1_0_0_1_n_n_wf : DotDims.WF S2000x384 S384x512 S2000x512 [1] [0] [0] [1] [] []
  dot_S2000x512_S512x1152_S2000x1152_1_0_0_1_n_n_wf : DotDims.WF S2000x512 S512x1152 S2000x1152 [1] [0] [0] [1] [] []
  scatter_S100000x512_S200000x1_S200000x512_1_0_0_1_wf : ScatterDims.WF S100000x512 S200000x1 S200000x512 [1] [0] [0] 1
  scatter_S100000_S200000x1_S200000_n_0_0_1_wf : ScatterDims.WF S100000 S200000x1 S200000 [] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .bf16 = 32 ∨ (Rect.block (s := S200000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .bf16 = 32 ∨ (Rect.block (s := S200000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S200000x128.size a
  hwx0_2 : ∀ i : grid0.Coords, EltTy.bits .bf16 = 32 ∨ (Rect.block (s := S200000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x512.size a ≤ S384x512.size a
  hwx0_3 : ∀ i : grid0.Coords, EltTy.bits .bf16 = 32 ∨ (Rect.block (s := S384x512) S384x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1152.size a ≤ S512x1152.size a
  hwx0_5 : ∀ i : grid0.Coords, EltTy.bits .bf16 = 32 ∨ (Rect.block (s := S512x1152) S512x1152.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1152.size a ≤ S1x1152.size a
  hwx0_6 : ∀ i : grid0.Coords, EltTy.bits .f32 = 32 ∨ (Rect.block (s := S1x1152) S1x1152.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1152.size a ≤ S200000x1152.size a
  hwx0_7 : ∀ i : grid0.Coords, EltTy.bits .f32 = 32 ∨ (Rect.block (s := S200000x1152) S2000x1152.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S2000x384_S384x512_S2000x512_1_0_0_1_n_n : DotDims S2000x384 S384x512 S2000x512 where
  lhsContracting := [1]
  rhsContracting := [0]
  lhsNonContracting := [0]
  rhsNonContracting := [1]
  lhsBatch := []
  rhsBatch := []
  wf := dot_S2000x384_S384x512_S2000x512_1_0_0_1_n_n_wf
def dot_S2000x512_S512x1152_S2000x1152_1_0_0_1_n_n : DotDims S2000x512 S512x1152 S2000x1152 where
  lhsContracting := [1]
  rhsContracting := [0]
  lhsNonContracting := [0]
  rhsNonContracting := [1]
  lhsBatch := []
  rhsBatch := []
  wf := dot_S2000x512_S512x1152_S2000x1152_1_0_0_1_n_n_wf
def scatter_S100000x512_S200000x1_S200000x512_1_0_0_1 : ScatterDims S100000x512 S200000x1 S200000x512 where
  updateWindowDims := [1]
  insertedWindowDims := [0]
  scatterDimsToOperandDims := [0]
  indexVectorDim := 1
  wf := scatter_S100000x512_S200000x1_S200000x512_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S384x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S512x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S2000x1152.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v63) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x512 : Shape := ⟨2, ![200000, 512]⟩
abbrev S1x512 : Shape := ⟨2, ![1, 512]⟩
abbrev S200000x1152 : Shape := ⟨2, ![200000, 1152]⟩
abbrev S1x1152 : Shape := ⟨2, ![1, 1152]⟩
abbrev S100000x512 : Shape := ⟨2, ![100000, 512]⟩
abbrev S100000 : Shape := ⟨1, ![100000]⟩
abbrev S100000x1 : Shape := ⟨2, ![100000, 1]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x128, .f32⟩
  | .hbm, ⟨33, _⟩ => ⟨S200000x384, .f32⟩
  | .hbm, ⟨34, _⟩ => ⟨S200000x512, .f32⟩
  | .hbm, ⟨35, _⟩ => ⟨S1x512, .f32⟩
  | .hbm, ⟨36, _⟩ => ⟨S200000x512, .f32⟩
  | .hbm, ⟨37, _⟩ => ⟨S200000x512, .f32⟩
  | .hbm, ⟨38, _⟩ => ⟨S_, .f32⟩
  | .hbm, ⟨39, _⟩ => ⟨S200000x512, .f32⟩
  | .hbm, ⟨40, _⟩ => ⟨S200000x512, .f32⟩
  | .hbm, ⟨41, _⟩ => ⟨S200000x1152, .f32⟩
  | .hbm, ⟨42, _⟩ => ⟨S1x1152, .f32⟩
  | .hbm, ⟨43, _⟩ => ⟨S200000x1152, .f32⟩
  | .hbm, ⟨44, _⟩ => ⟨S200000x1152, .f32⟩
  | .hbm, ⟨45, _⟩ => ⟨S_, .f32⟩
  | .hbm, ⟨46, _⟩ => ⟨S200000x1152, .f32⟩
  | .hbm, ⟨47, _⟩ => ⟨S200000x1152, .f32⟩
  | .hbm, ⟨48, _⟩ => ⟨S200000x512, .f32⟩
  | .hbm, ⟨49, _⟩ => ⟨S200000x128, .f32⟩
  | .hbm, ⟨50, _⟩ => ⟨S200000x512, .f32⟩
  | .hbm, ⟨51, _⟩ => ⟨S_, .f32⟩
  | .hbm, ⟨52, _⟩ => ⟨S100000x512, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S100000x512, .f32⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S100000x512, .f32⟩
  | .hbm, ⟨71, _⟩ => ⟨S_, .f32⟩
  | .hbm, ⟨72, _⟩ => ⟨S200000, .f32⟩
  | .hbm, ⟨73, _⟩ => ⟨S_, .f32⟩
  | .hbm, ⟨74, _⟩ => ⟨S100000, .f32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S100000, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x512, .f32⟩
  | .hbm, ⟨98, _⟩ => ⟨S100000x512, .f32⟩
  | .hbm, ⟨99, _⟩ => ⟨S100000x512, .f32⟩
  | .hbm, ⟨100, _⟩ => ⟨S1x512, .f32⟩
  | .hbm, ⟨101, _⟩ => ⟨S100000x512, .f32⟩
  | .hbm, ⟨102, _⟩ => ⟨S100000x512, .f32⟩
  | .hbm, ⟨103, _⟩ => ⟨S_, .f32⟩
  | .hbm, ⟨104, _⟩ => ⟨S100000x512, .f32⟩
  | .hbm, ⟨105, _⟩ => ⟨S100000x512, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S_, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call2_cst : Ref sig .tc := ⟨.hbm, 103, rfl⟩
abbrev main_call2_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call3_cst : Ref sig .tc := ⟨.hbm, 110, rfl⟩
abbrev main_call3_v0 : Ref sig .tc := ⟨.hbm, 111, rfl⟩
abbrev main_v77 : Ref sig .tc := ⟨.hbm, 112, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1152_S1x1152_1 : S1152.BroadcastsInDim S1x1152 (![1] : Fin 1 → Fin S1x1152.rank)
  bcast_S1x1152_S200000x1152_0_1 : S1x1152.BroadcastsInDim S200000x1152 (![0, 1] : Fin 2 → Fin S200000x1152.rank)
  bcast_S_S200000x1152 : S_.BroadcastsInDim S200000x1152 (![] : Fin 0 → Fin S200000x1152.rank)
  slices_S200000x1152_S200000x512_0_0 : S200000x1152.Slices ![0, 0] S200000x512
  slices_S200000x1152_S200000x128_0_512 : S200000x1152.Slices ![0, 512] S200000x128
  slices_S200000x1152_S200000x512_0_640 : S200000x1152.Slices ![0, 640] S200000x512
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S1x512_S100000x512_0_1 : S1x512.BroadcastsInDim S100000x512 (![0, 1] : Fin 2 → Fin S100000x512.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x128_S200000x1_S200000x128_1_0_n_n_0_1_1128_wf : GatherDims.WF S100000x128 S200000x1 S200000x128 [1] [0] [] [0] [] 1 ![1, 128]
  dot_S200000x384_S384x512_S200000x512_1_0_0_1_n_n_wf : DotDims.WF S200000x384 S384x512 S200000x512 [1] [0] [0] [1] [] []
  dot_S200000x512_S512x1152_S200000x1152_1_0_0_1_n_n_wf : DotDims.WF S200000x512 S512x1152 S200000x1152 [1] [0] [0] [1] [] []
  scatter_S100000x512_S200000x1_S200000x512_1_0_0_1_wf : ScatterDims.WF S100000x512 S200000x1 S200000x512 [1] [0] [0] 1
  scatter_S100000_S200000x1_S200000_n_0_0_1_wf : ScatterDims.WF S100000 S200000x1 S200000 [] [0] [0] 1
  dot_S100000x512_S512x512_S100000x512_1_0_0_1_n_n_wf : DotDims.WF S100000x512 S512x512 S100000x512 [1] [0] [0] [1] [] []
  dot_S100000x512_S512x128_S100000x128_1_0_0_1_n_n_wf : DotDims.WF S100000x512 S512x128 S100000x128 [1] [0] [0] [1] [] []

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x384_S384x512_S200000x512_1_0_0_1_n_n : DotDims S200000x384 S384x512 S200000x512 where
  lhsContracting := [1]
  rhsContracting := [0]
  lhsNonContracting := [0]
  rhsNonContracting := [1]
  lhsBatch := []
  rhsBatch := []
  wf := dot_S200000x384_S384x512_S200000x512_1_0_0_1_n_n_wf
def dot_S200000x512_S512x1152_S200000x1152_1_0_0_1_n_n : DotDims S200000x512 S512x1152 S200000x1152 where
  lhsContracting := [1]
  rhsContracting := [0]
  lhsNonContracting := [0]
  rhsNonContracting := [1]
  lhsBatch := []
  rhsBatch := []
  wf := dot_S200000x512_S512x1152_S200000x1152_1_0_0_1_n_n_wf
def scatter_S100000x512_S200000x1_S200000x512_1_0_0_1 : ScatterDims S100000x512 S200000x1 S200000x512 where
  updateWindowDims := [1]
  insertedWindowDims := [0]
  scatterDimsToOperandDims := [0]
  indexVectorDim := 1
  wf := scatter_S100000x512_S200000x1_S200000x512_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.KRun.lean ====
/-
  The idealized kernel program's run, with its two results read.

  The program is four stretches: host operations, the first pallas_call, host operations, the second
  pallas_call. The buffer contents at the four boundaries are a fold from the launch memory, and at the last
  boundary every unscoped buffer holds the fold's value. So every weakly fair execution terminates with the
  two result buffers at the last boundary's contents and the eleven argument arrays as launched.
-/
import proofs.«173834_j29996051595776_1_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at
    the last boundary's contents and every argument array as launched. -/
theorem run : θ_run defs (onTc (τ := τ) (main (F := F))) ⟨m, fun _ => 0, ρ⟩ (fun r => ∀ c : Dev nD,
      r.2.mem ((c.tc : Thread nD τ).loc main_v68) = W4 m ρ c (Proc.devRef .tc main_v68)
      ∧ r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v68 (by decide)),
       h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValues

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«173834_j29996051595776_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.Entry0.lean ====
/-
  What the first pallas_call finds in its seven input arrays.

  Before the call the host program slices the two index columns out of the edge list, wraps negative indices,
  gathers the subject and object rows, changes float formats (the identity on extended reals) and reshapes the two
  bias vectors into 1×n rows. Each of the seven arrays is therefore the same function of the program's arguments
  that the reference program computes: the gathered rows are the reference's gathered rows, the predicate vectors
  and the weight matrices are the arguments themselves, and a vector reshaped to a row is the vector broadcast
  along a new unit axis.
-/
import proofs.«173834_j29996051595776_1_alg».proof.Proof.Gen.KernelIdeal.Frame
import proofs.«173834_j29996051595776_1_alg».proof.Proof.Gen.ReferenceIdeal.Read
import proofs.«173834_j29996051595776_1_alg».proof.Proof.LibDenseLayer
import Idealize.ShloMosaic.Lib.StableHlo.Run

set_option maxRecDepth 16384
set_option maxHeartbeats 1000000

noncomputable section

namespace Cert.KernelIdeal.Entry0

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The gathered subject rows. -/
theorem v12 : (V1 m ρ c main_v12 : S200000x128.Idx → EReal) =
    Cert.ReferenceIdeal.Read.val_main_v10 (F := Ideal) (m ((c : Thread nD τ).loc main_arg0)) (m ((c : Thread nD τ).loc main_arg2)) := by
  show StableHlo.after hostOps0 (W0 m ρ c) (Proc.devRef .tc main_v12) = _
  after_results_simp
  rfl

/-- The gathered object rows. -/
theorem v19 : (V1 m ρ c main_v19 : S200000x128.Idx → EReal) =
    Cert.ReferenceIdeal.Read.val_main_v17 (F := Ideal) (m ((c : Thread nD τ).loc main_arg0)) (m ((c : Thread nD τ).loc main_arg2)) := by
  show StableHlo.after hostOps0 (W0 m ρ c) (Proc.devRef .tc main_v19) = _
  after_results_simp
  rfl

/-- The predicate vectors. -/
theorem v5 : (V1 m ρ c main_v5 : S200000x128.Idx → EReal) = m ((c : Thread nD τ).loc main_arg1) := by
  show StableHlo.after hostOps0 (W0 m ρ c) (Proc.devRef .tc main_v5) = _
  after_results_simp
  rfl

/-- The first weight matrix. -/
theorem v20 : (V1 m ρ c main_v20 : S384x512.Idx → EReal) = m ((c : Thread nD τ).loc main_arg3) := by
  show StableHlo.after hostOps0 (W0 m ρ c) (Proc.devRef .tc main_v20) = _
  after_results_simp
  rfl

/-- The second weight matrix. -/
theorem v21 : (V1 m ρ c main_v21 : S512x1152.Idx → EReal) = m ((c : Thread nD τ).loc main_arg5) := by
  show StableHlo.after hostOps0 (W0 m ρ c) (Proc.devRef .tc main_v21) = _
  after_results_simp
  rfl

/-- The first bias as a row. -/
theorem v22 : (V1 m ρ c main_v22 : S1x512.Idx → EReal) =
    Cert.ReferenceIdeal.Read.val_main_v20 (F := Ideal) (m ((c : Thread nD τ).loc main_arg4)) := by
  show StableHlo.after hostOps0 (W0 m ρ c) (Proc.devRef .tc main_v22) = _
  after_results_simp
  exact Cert.Lib.DenseLayer.addUnit_eq_bcast (by decide) _ _ _

/-- The second bias as a row. -/
theorem v23 : (V1 m ρ c main_v23 : S1x1152.Idx → EReal) =
    Cert.ReferenceIdeal.Read.val_main_v25 (F := Ideal) (m ((c : Thread nD τ).loc main_arg6)) := by
  show StableHlo.after hostOps0 (W0 m ρ c) (Proc.devRef .tc main_v23) = _
  after_results_simp
  exact Cert.Lib.DenseLayer.addUnit_eq_bcast (by decide) _ _ _

end Cert.KernelIdeal.Entry0

end
-- ==== Proof.Pool.lean ====
/-
  The pooling step between the two networks, as one function of the first network's output and the edge list.

  The first 512 columns of each edge's 1152 outputs are added into the row of the edge's subject, the last 512
  columns into the row of its object (two scatter-additions into a zero matrix, in this order), and each object's
  row is divided by the number of times the object occurs as a subject or an object, at least 1. The host program
  of the reference computes exactly this from its own first network's output.
-/
import proofs.«173834_j29996051595776_1_alg».proof.Proof.Gen.ReferenceIdeal.Read

noncomputable section

namespace Cert.ReferenceIdeal.Bridge

open Idealize.ShloMosaic
open Cert.ReferenceIdeal Cert.ReferenceIdeal.Gen Cert.ReferenceIdeal.Read

/-- The pooled matrix from the first network's output and the edge list. -/
def Pool (nt : FVec Ideal S200000x1152 .f32) (x2 : IVec S200000x2 32) : FVec Ideal S100000x512 .f32 :=
  Host.divf
    (Host.scatterAdd scatter_S100000x512_S200000x1_S200000x512_1_0_0_1
      (Host.scatterAdd scatter_S100000x512_S200000x1_S200000x512_1_0_0_1 (val_main_v32 (F := Ideal)) (val_main_v38 (F := Ideal) x2)
        (extractStridedSlice S200000x512 ![0, 0] nt slices_S200000x1152_S200000x512_0_0))
      (val_main_v45 (F := Ideal) x2)
      (extractStridedSlice S200000x512 ![0, 640] nt slices_S200000x1152_S200000x512_0_640))
    (val_main_v66 (F := Ideal) x2)

/-- The reference's pooled matrix is that function of its first network's output. -/
theorem pool_ref (x0 : FVec Ideal S100000x128 .f32) (x1 : FVec Ideal S200000x128 .f32) (x2 : IVec S200000x2 32)
    (x3 : FVec Ideal S384x512 .f32) (x4 : FVec Ideal S512 .f32) (x5 : FVec Ideal S512x1152 .f32) (x6 : FVec Ideal S1152 .f32) :
    val_main_v67 (F := Ideal) x0 x1 x2 x3 x4 x5 x6 = Pool (val_main_v28 (F := Ideal) x0 x1 x2 x3 x4 x5 x6) x2 := by
  unfold val_main_v67 val_main_v46 val_main_v39 val_main_v29 val_main_v31 Pool
  rfl

/-- The reference's second result is the middle 128 columns of its first network's output. -/
theorem mid_ref (x0 : FVec Ideal S100000x128 .f32) (x1 : FVec Ideal S200000x128 .f32) (x2 : IVec S200000x2 32)
    (x3 : FVec Ideal S384x512 .f32) (x4 : FVec Ideal S512 .f32) (x5 : FVec Ideal S512x1152 .f32) (x6 : FVec Ideal S1152 .f32) :
    val_main_v30 (F := Ideal) x0 x1 x2 x3 x4 x5 x6 =
      extractStridedSlice S200000x128 ![0, 512] (val_main_v28 (F := Ideal) x0 x1 x2 x3 x4 x5 x6) slices_S200000x1152_S200000x128_0_512 := rfl

end Cert.ReferenceIdeal.Bridge

end
-- ==== Proof.Entry1.lean ====
/-
  What the second pallas_call finds in its five input arrays, and the program's second result.

  Between the two calls the host program cuts the first call's 200000×1152 output into three column bands, pools
  the first and the last band over the edges' subjects and objects, and prepares the second network's weights and
  bias rows. None of these operations writes an array of the first call or an argument, so the edge indices are
  still the reference's functions of the edge list and the weights are the arguments themselves. The pooled matrix
  is therefore the pooling function of the first call's output, and the second result is that output's middle band.
-/
import proofs.«173834_j29996051595776_1_alg».proof.Proof.Gen.KernelIdeal.Frame
import proofs.«173834_j29996051595776_1_alg».proof.Proof.Gen.ReferenceIdeal.Read
import proofs.«173834_j29996051595776_1_alg».proof.Proof.Pool
import proofs.«173834_j29996051595776_1_alg».proof.Proof.LibDenseLayer
import Idealize.ShloMosaic.Lib.StableHlo.Run

set_option maxRecDepth 16384
set_option maxHeartbeats 1000000

noncomputable section

namespace Cert.KernelIdeal.Entry1

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first call the subject indices are still the reference's function of the edge list. -/
theorem idx1 : (W2 m ρ c (Proc.devRef .tc main_v1) : S200000.Idx → BitVec 32) =
    Cert.ReferenceIdeal.Read.val_main_v1 (F := Ideal) (m ((c : Thread nD τ).loc main_arg2)) := by
  rw [W2_of_ne m ρ c main_v1 (by decide)]
  show StableHlo.after hostOps0 (W0 m ρ c) (Proc.devRef .tc main_v1) = _
  after_results_simp <;> rfl

/-- … and so are the object indices. -/
theorem idx3 : (W2 m ρ c (Proc.devRef .tc main_v3) : S200000.Idx → BitVec 32) =
    Cert.ReferenceIdeal.Read.val_main_v3 (F := Ideal) (m ((c : Thread nD τ).loc main_arg2)) := by
  rw [W2_of_ne m ρ c main_v3 (by decide)]
  show StableHlo.after hostOps0 (W0 m ρ c) (Proc.devRef .tc main_v3) = _
  after_results_simp <;> rfl

theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl
theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl
theorem W2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl
theorem W2_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl

/-- The pooled matrix the second call reads is the pooling function of the first call's output array. -/
theorem v63 : (V3 m ρ c main_v63 : S100000x512.Idx → EReal) =
    Cert.ReferenceIdeal.Bridge.Pool (V2 m ρ c main_v24) (m ((c : Thread nD τ).loc main_arg2)) := by
  show StableHlo.after hostOps1 (W2 m ρ c) (Proc.devRef .tc main_v63) = _
  after_results_simp
  rw [idx1 m ρ c, idx3 m ρ c]
  rfl

/-- The program's second result is the middle 128 columns of the first call's output array. -/
theorem v26 : (V3 m ρ c main_v26 : S200000x128.Idx → EReal) =
    extractStridedSlice Cert.ReferenceIdeal.S200000x128 ![0, 512] (V2 m ρ c main_v24 : Cert.ReferenceIdeal.S200000x1152.Idx → EReal)
      Cert.ReferenceIdeal.Gen.slices_S200000x1152_S200000x128_0_512 := by
  show StableHlo.after hostOps1 (W2 m ρ c) (Proc.devRef .tc main_v26) = _
  after_results_simp <;> rfl

/-- The second network's first weight matrix. -/
theorem v64 : (V3 m ρ c main_v64 : S512x512.Idx → EReal) = m ((c : Thread nD τ).loc main_arg7) := by
  show StableHlo.after hostOps1 (W2 m ρ c) (Proc.devRef .tc main_v64) = _
  after_results_simp
  rw [W2_arg7 m ρ c]
  rfl

/-- The second network's second weight matrix. -/
theorem v65 : (V3 m ρ c main_v65 : S512x128.Idx → EReal) = m ((c : Thread nD τ).loc main_arg9) := by
  show StableHlo.after hostOps1 (W2 m ρ c) (Proc.devRef .tc main_v65) = _
  after_results_simp
  rw [W2_arg9 m ρ c]
  rfl

/-- The second network's first bias as a row. -/
theorem v66 : (V3 m ρ c main_v66 : S1x512.Idx → EReal) =
    Cert.ReferenceIdeal.Read.val_main_v69 (F := Ideal) (m ((c : Thread nD τ).loc main_arg8)) := by
  show StableHlo.after hostOps1 (W2 m ρ c) (Proc.devRef .tc main_v66) = _
  after_results_simp
  rw [W2_arg8 m ρ c]
  exact Cert.Lib.DenseLayer.addUnit_eq_bcast (by decide) _ _ _

/-- The second network's second bias as a row. -/
theorem v67 : (V3 m ρ c main_v67 : S1x128.Idx → EReal) =
    Cert.ReferenceIdeal.Read.val_main_v74 (F := Ideal) (m ((c : Thread nD τ).loc main_arg10)) := by
  show StableHlo.after hostOps1 (W2 m ρ c) (Proc.devRef .tc main_v67) = _
  after_results_simp
  rw [W2_arg10 m ρ c]
  exact Cert.Lib.DenseLayer.addUnit_eq_bcast (by decide) _ _ _

end Cert.KernelIdeal.Entry1

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«173834_j29996051595776_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«173834_j29996051595776_1_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibRowConcat.lean ====
/-
  Blocks of rows of a matrix assembled from three matrices laid side by side.

  Three matrices with the same rows and K columns each, concatenated along the columns, give a matrix whose
  entry (r, c) is entry (r, c - p·K) of the p-th of them, p the third of the columns c falls in. The choice of
  the piece depends on the column only, so if each small matrix is the block of rows of a large one starting at
  row off, the concatenation of the small ones is that block of rows of the concatenation of the large ones.
  No finiteness is asked of any entry.
-/
import proofs.«173834_j29996051595776_1_alg».proof.Proof.LibDenseLayer

noncomputable section

namespace Cert.Lib.DenseLayer

open Idealize.ShloMosaic Idealize.ShloMosaic.ValueIdx

/-- Entry (r, c) of three K-column matrices laid side by side: the piece is chosen by the column. -/
theorem concat3_apply {α : Type} {M K K3 : Nat} (A1 A2 A3 : (⟨2, ![M, K]⟩ : Shape).Idx → α)
    (h : Shape.Concatenates ([(⟨⟨2, ![M, K]⟩, A1⟩ : (s : Shape) × (s.Idx → α)), ⟨⟨2, ![M, K]⟩, A2⟩, ⟨⟨2, ![M, K]⟩, A3⟩].map (·.1)) ⟨2, ![M, K3]⟩ 1)
    (r : Fin M) (c : Fin K3) :
    concatenate ⟨2, ![M, K3]⟩ 1 [⟨⟨2, ![M, K]⟩, A1⟩, ⟨⟨2, ![M, K]⟩, A2⟩, ⟨⟨2, ![M, K]⟩, A3⟩] h (ix2 r c) =
      if h1 : c.val < K then A1 (ix2 r ⟨c.val, h1⟩)
      else if h2 : c.val - K < K then A2 (ix2 r ⟨c.val - K, h2⟩)
      else if h3 : c.val - K - K < K then A3 (ix2 r ⟨c.val - K - K, h3⟩)
      else A1 (ix2 r ⟨0, by
        have hs : K + (K + (K + 0)) = K3 := h.2.2
        have := c.isLt; omega⟩) := by
  have hs : K + (K + (K + 0)) = K3 := h.2.2
  have hc := c.isLt
  by_cases h1 : c.val < K
  · rw [dif_pos h1]
    refine concatenate_apply_piece 1 _ h (ix2 r c) 0 (show 0 < 3 from by decide) ⟨2, ![M, K]⟩ A1 rfl rfl 0 rfl (ix2 r ⟨c.val, h1⟩) ?_ ?_
    · intro b hb
      match b with
      | ⟨0, _⟩ => rfl
      | ⟨1, _⟩ => exact absurd rfl hb
    · show 0 + c.val = c.val; omega
  · rw [dif_neg h1]
    by_cases h2 : c.val - K < K
    · rw [dif_pos h2]
      refine concatenate_apply_piece 1 _ h (ix2 r c) 1 (show 1 < 3 from by decide) ⟨2, ![M, K]⟩ A2 rfl rfl (K + 0) rfl (ix2 r ⟨c.val - K, h2⟩) ?_ ?_
      · intro b hb
        match b with
        | ⟨0, _⟩ => rfl
        | ⟨1, _⟩ => exact absurd rfl hb
      · show K + 0 + (c.val - K) = c.val; omega
    · rw [dif_neg h2]
      have h3 : c.val - K - K < K := by omega
      rw [dif_pos h3]
      refine concatenate_apply_piece 1 _ h (ix2 r c) 2 (show 2 < 3 from by decide) ⟨2, ![M, K]⟩ A3 rfl rfl (K + (K + 0)) rfl (ix2 r ⟨c.val - K - K, h3⟩) ?_ ?_
      · intro b hb
        match b with
        | ⟨0, _⟩ => rfl
        | ⟨1, _⟩ => exact absurd rfl hb
      · show K + (K + 0) + (c.val - K - K) = c.val; omega

/-- Three blocks of rows laid side by side are the block of rows of the three matrices laid side by side. -/
theorem RowBlk.concat3 {Mb M K K3 : Nat} {off : Nat} {a1 a2 a3 : (⟨2, ![Mb, K]⟩ : Shape).Idx → EReal}
    {A1 A2 A3 : (⟨2, ![M, K]⟩ : Shape).Idx → EReal} (h1 : RowBlk off a1 A1) (h2 : RowBlk off a2 A2) (h3 : RowBlk off a3 A3)
    (hb : Shape.Concatenates ([(⟨⟨2, ![Mb, K]⟩, a1⟩ : (s : Shape) × (s.Idx → EReal)), ⟨⟨2, ![Mb, K]⟩, a2⟩, ⟨⟨2, ![Mb, K]⟩, a3⟩].map (·.1)) ⟨2, ![Mb, K3]⟩ 1)
    (hB : Shape.Concatenates ([(⟨⟨2, ![M, K]⟩, A1⟩ : (s : Shape) × (s.Idx → EReal)), ⟨⟨2, ![M, K]⟩, A2⟩, ⟨⟨2, ![M, K]⟩, A3⟩].map (·.1)) ⟨2, ![M, K3]⟩ 1) :
    RowBlk off (concatenate ⟨2, ![Mb, K3]⟩ 1 [⟨⟨2, ![Mb, K]⟩, a1⟩, ⟨⟨2, ![Mb, K]⟩, a2⟩, ⟨⟨2, ![Mb, K]⟩, a3⟩] hb)
      (concatenate ⟨2, ![M, K3]⟩ 1 [⟨⟨2, ![M, K]⟩, A1⟩, ⟨⟨2, ![M, K]⟩, A2⟩, ⟨⟨2, ![M, K]⟩, A3⟩] hB) := fun r hr c => by
  rw [concat3_apply a1 a2 a3 hb r c, concat3_apply A1 A2 A3 hB ⟨off + r.val, hr⟩ c]
  split
  · exact h1 r hr _
  · split
    · exact h2 r hr _
    · split
      · exact h3 r hr _
      · exact h1 r hr _

end Cert.Lib.DenseLayer

end
-- ==== Proof.Net1.lean ====
/-
  The first dense network of the message-passing step, one block of rows at a time.

  For every edge the network takes the 384 numbers (subject vector, predicate vector, object vector, 128 each, side
  by side), multiplies by a 384×512 matrix, adds a bias row, takes the maximum with 0, multiplies by a 512×1152
  matrix, adds a bias row and takes the maximum with 0 again. Every step acts on each row by itself. So what the
  kernel body computes from 2000 consecutive rows of the three inputs is the same 2000 rows of what the host
  program computes from all 200000 rows: the matrix unit's product into the zero accumulator is the same sum of
  products as the host's, a change of float format is the identity on extended reals, and the three pieces are
  laid side by side the same way. No finiteness is needed.
-/
import proofs.«173834_j29996051595776_1_alg».proof.Proof.Gen.KernelIdeal.Skeleton
import proofs.«173834_j29996051595776_1_alg».proof.Proof.Gen.ReferenceIdeal.Read
import proofs.«173834_j29996051595776_1_alg».proof.Proof.LibBlockFormats
import proofs.«173834_j29996051595776_1_alg».proof.Proof.LibRowConcat

noncomputable section

namespace Cert.ReferenceIdeal.Bridge

open Idealize.ShloMosaic Idealize.ShloMosaic.ValueIdx Cert.Lib.DenseLayer
open Cert.ReferenceIdeal Cert.ReferenceIdeal.Gen Cert.ReferenceIdeal.Read

/-- The host's two-layer network on all the rows, as a function of the three 128-column inputs, the two weight
    matrices and the two bias rows (each bias already a 1×n row). -/
def Net1 (A0 A1 A2 : FVec Ideal S200000x128 .f32) (w1 : FVec Ideal S384x512 .f32) (r1 : FVec Ideal S1x512 .f32)
    (w2 : FVec Ideal S512x1152 .f32) (r2 : FVec Ideal S1x1152 .f32) : FVec Ideal S200000x1152 .f32 :=
  maximumf (addf (Host.dotGeneral dot_S200000x512_S512x1152_S200000x1152_1_0_0_1_n_n none
      (maximumf (addf (Host.dotGeneral dot_S200000x384_S384x512_S200000x512_1_0_0_1_n_n none
          (concatenate S200000x384 1 [⟨S200000x128, A0⟩, ⟨S200000x128, A1⟩, ⟨S200000x128, A2⟩] concatenates_S200000x128_S200000x128_S200000x128_S200000x384_d1) w1)
          (broadcastInDim S200000x512 ![0, 1] bcast_S1x512_S200000x512_0_1 r1))
        (val_main_call0_v0 (F := Ideal))) w2)
      (broadcastInDim S200000x1152 ![0, 1] bcast_S1x1152_S200000x1152_0_1 r2))
    (val_main_call1_v0 (F := Ideal))

/-- The host program's value after its second rectifier is that network of its gathered rows. -/
theorem net1_ref (x0 : FVec Ideal S100000x128 .f32) (x1 : FVec Ideal S200000x128 .f32) (x2 : IVec S200000x2 32)
    (x3 : FVec Ideal S384x512 .f32) (x4 : FVec Ideal S512 .f32) (x5 : FVec Ideal S512x1152 .f32) (x6 : FVec Ideal S1152 .f32) :
    val_main_v28 (F := Ideal) x0 x1 x2 x3 x4 x5 x6 =
      Net1 (val_main_v10 (F := Ideal) x0 x2) x1 (val_main_v17 (F := Ideal) x0 x2) x3 (val_main_v20 (F := Ideal) x4) x5 (val_main_v25 (F := Ideal) x6) := by
  unfold val_main_v28 val_main_v27 val_main_v24 val_main_v23 val_main_v22 val_main_v19 val_main_v18 val_main_v21 val_main_v26 Net1
  rfl

theorem plain_k1 : Plain Cert.KernelIdeal.dot_S2000x384_S384x512_S2000x512_1_0_0_1_n_n := Plain.of_fields _ rfl rfl rfl rfl rfl rfl
theorem plain_k2 : Plain Cert.KernelIdeal.dot_S2000x512_S512x1152_S2000x1152_1_0_0_1_n_n := Plain.of_fields _ rfl rfl rfl rfl rfl rfl
theorem plain_r1 : Plain dot_S200000x384_S384x512_S200000x512_1_0_0_1_n_n := Plain.of_fields _ rfl rfl rfl rfl rfl rfl
theorem plain_r2 : Plain dot_S200000x512_S512x1152_S200000x1152_1_0_0_1_n_n := Plain.of_fields _ rfl rfl rfl rfl rfl rfl

/-- The host's splat of 0.0 over the 200000×512 matrix reads the word's value everywhere. -/
theorem zero0_apply (i : S200000x512.Idx) : val_main_call0_v0 (F := Ideal) i = Ideal.ofBits .f32 0x00000000#32 :=
  (val_main_call0_v0_apply i).trans (val_main_call0_cst_apply _)
theorem zero1_apply (i : S200000x1152.Idx) : val_main_call1_v0 (F := Ideal) i = Ideal.ofBits .f32 0x00000000#32 :=
  (val_main_call1_v0_apply i).trans (val_main_call1_cst_apply _)

/-- A block of rows times a matrix held as bf16, into the zero accumulator, against the host's product with the
    same matrix held as f32: the same sums of products (a float format is not part of an extended real). -/
theorem RowBlk.matmulZero32 {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ : FTy}
    {xb : FVec Ideal ⟨2, ![Mb, K]⟩ φ₁} {X : FVec Ideal ⟨2, ![M, K]⟩ .f32} (h : RowBlk off xb X) (w : FVec Ideal ⟨2, ![K, N]⟩ .bf16) :
    RowBlk off (Idealize.ShloMosaic.matmul db none xb w (constant ⟨2, ![Mb, N]⟩ .f32 0x00000000#32))
      (Host.dotGeneral (φ₂ := .f32) dh none X w) :=
  RowBlk.matmulZero hb hh h w

/-- What the body computes from a block of rows of the three inputs is that block of rows of the network. -/
theorem net1_block {off : Nat} {b0 b1 b2 : FVec Ideal Cert.KernelIdeal.S2000x128 .bf16} {A0 A1 A2 : FVec Ideal S200000x128 .f32}
    (h0 : RowBlk off b0 A0) (h1 : RowBlk off b1 A1) (h2 : RowBlk off b2 A2)
    (w1 : FVec Ideal S384x512 .bf16) (r1 : FVec Ideal S1x512 .f32) (w2 : FVec Ideal S512x1152 .bf16) (r2 : FVec Ideal S1x1152 .f32) :
    RowBlk off (Cert.KernelIdeal.Gen.k0_pay1 (F := Ideal) b0 b1 b2 w1 r1 w2 r2) (Net1 A0 A1 A2 w1 r1 w2 r2) := by
  have hc := RowBlk.concat3 (h0.castSelf Cert.KernelIdeal.Gen.shapeCasts_S2000x128_S2000x128) (h1.castSelf Cert.KernelIdeal.Gen.shapeCasts_S2000x128_S2000x128)
    (h2.castSelf Cert.KernelIdeal.Gen.shapeCasts_S2000x128_S2000x128) Cert.KernelIdeal.Gen.concatenates_S2000x128_S2000x128_S2000x128_S2000x384_d1
    concatenates_S200000x128_S200000x128_S200000x128_S200000x384_d1
  have hm1 := RowBlk.matmulZero32 (φ₁ := .bf16) plain_k1 plain_r1 hc w1
  have hb1 : RowBlk off (broadcastTo Cert.KernelIdeal.S2000x512 r1 Cert.KernelIdeal.Gen.broadcasts_S1x512_S2000x512)
      (broadcastInDim S200000x512 ![0, 1] bcast_S1x512_S200000x512_0_1 r1) := RowBlk.bias r1 _ _
  have hz1 : RowBlk off (broadcast Cert.KernelIdeal.S2000x512 (Scalar.ofBits (F := Ideal) .f32 0x00000000#32)) (val_main_call0_v0 (F := Ideal)) :=
    RowBlk.const (Ideal.ofBits .f32 0x00000000#32) (fun _ => rfl) zero0_apply
  have hx1 := (hm1.add hb1).max hz1
  have hn1 := RowBlk.narrow (ψ := .bf16) hx1 Cert.KernelIdeal.Gen.bitsLt_bf16_f32
  have hm2 := RowBlk.matmulZero32 (φ₁ := .bf16) plain_k2 plain_r2 hn1 w2
  have hb2 : RowBlk off (broadcastTo Cert.KernelIdeal.S2000x1152 r2 Cert.KernelIdeal.Gen.broadcasts_S1x1152_S2000x1152)
      (broadcastInDim S200000x1152 ![0, 1] bcast_S1x1152_S200000x1152_0_1 r2) := RowBlk.bias r2 _ _
  have hz2 : RowBlk off (broadcast Cert.KernelIdeal.S2000x1152 (Scalar.ofBits (F := Ideal) .f32 0x00000000#32)) (val_main_call1_v0 (F := Ideal)) :=
    RowBlk.const (Ideal.ofBits .f32 0x00000000#32) (fun _ => rfl) zero1_apply
  have hx2 := (hm2.add hb2).max hz2
  unfold Cert.KernelIdeal.Gen.k0_pay1 Net1
  simp only [shapeCast_self]
  exact hx2

end Cert.ReferenceIdeal.Bridge

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«173834_j29996051595776_1_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.Region0.lean ====
/-
  The array the first pallas_call leaves: the two-layer network of the call's seven input arrays.

  Grid point t of the call reads rows 2000·t … 2000·t + 1999 of the three 128-column inputs, the whole weight
  matrices and bias rows, and writes rows 2000·t … 2000·t + 1999 of the 200000×1152 output. What it writes is
  those rows of the network of the whole inputs, because each output row depends on the same row of the inputs
  only. The hundred blocks of rows tile the output, so after the call the output array is the network of the input
  arrays as the call found them.
-/
import proofs.«173834_j29996051595776_1_alg».proof.Proof.Gen.KernelIdeal.Frame
import proofs.«173834_j29996051595776_1_alg».proof.Proof.Net1
import proofs.«173834_j29996051595776_1_alg».proof.Proof.LibRowRead
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.DenseLayer Cert.ReferenceIdeal.Bridge

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows are at block (t, 0), the weights
    and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point t is the block of rows of its array that starts at row 2000·t. -/
theorem rows0 (c : Dev nD) (t : Fin cfg0.N) :
    RowBlk (2000 * t.val) (iblk0 V c 0 t) (V c main_v12 : Cert.ReferenceIdeal.S200000x128.Idx → EReal) :=
  RowBlk.of_read (fun y => ((cfg0.win 0).blk t).view.emb y)
    (fun y => by
      show win0_0.index t (0 : Fin 2) * 2000 + 1 * (y 0).val = 2000 * t.val + (y 0).val
      have := (idx_facts t).1; omega)
    (fun y => by
      show win0_0.index t (1 : Fin 2) * 128 + 1 * (y 1).val = (y 1).val
      have := (idx_facts t).2.1; omega)
    (fun y => rfl)

theorem rows1 (c : Dev nD) (t : Fin cfg0.N) :
    RowBlk (2000 * t.val) (iblk0 V c 1 t) (V c main_v5 : Cert.ReferenceIdeal.S200000x128.Idx → EReal) :=
  RowBlk.of_read (fun y => ((cfg0.win 1).blk t).view.emb y)
    (fun y => by
      show win0_1.index t (0 : Fin 2) * 2000 + 1 * (y 0).val = 2000 * t.val + (y 0).val
      have := (idx_facts t).2.2.1; omega)
    (fun y => by
      show win0_1.index t (1 : Fin 2) * 128 + 1 * (y 1).val = (y 1).val
      have := (idx_facts t).2.2.2.1; omega)
    (fun y => rfl)

theorem rows2 (c : Dev nD) (t : Fin cfg0.N) :
    RowBlk (2000 * t.val) (iblk0 V c 2 t) (V c main_v19 : Cert.ReferenceIdeal.S200000x128.Idx → EReal) :=
  RowBlk.of_read (fun y => ((cfg0.win 2).blk t).view.emb y)
    (fun y => by
      show win0_2.index t (0 : Fin 2) * 2000 + 1 * (y 0).val = 2000 * t.val + (y 0).val
      have := (idx_facts t).2.2.2.2.1; omega)
    (fun y => by
      show win0_2.index t (1 : Fin 2) * 128 + 1 * (y 1).val = (y 1).val
      have := (idx_facts t).2.2.2.2.2.1; omega)
    (fun y => rfl)

/-- The weight and bias windows hold their whole arrays at every point. -/
theorem whole3 (c : Dev nD) (t : Fin cfg0.N) : iblk0 V c 3 t = (V c main_v20 : S384x512.Idx → EReal) := by
  funext y
  show V c main_v20 (((cfg0.win 3).blk t).view.emb y) = V c main_v20 y
  obtain ⟨_, _, _, _, _, _, e0, e1, _⟩ := idx_facts t
  refine congrArg _ (funext fun a => Fin.ext ?_)
  match a with
  | ⟨0, _⟩ => show win0_3.index t (0 : Fin 2) * 384 + 1 * (y 0).val = (y 0).val; omega
  | ⟨1, _⟩ => show win0_3.index t (1 : Fin 2) * 512 + 1 * (y 1).val = (y 1).val; omega

theorem whole4 (c : Dev nD) (t : Fin cfg0.N) : iblk0 V c 4 t = (V c main_v22 : S1x512.Idx → EReal) := by
  funext y
  show V c main_v22 (((cfg0.win 4).blk t).view.emb y) = V c main_v22 y
  obtain ⟨_, _, _, _, _, _, _, _, e0, e1, _⟩ := idx_facts t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem whole5 (c : Dev nD) (t : Fin cfg0.N) : iblk0 V c 5 t = (V c main_v21 : S512x1152.Idx → EReal) := by
  funext y
  show V c main_v21 (((cfg0.win 5).blk t).view.emb y) = V c main_v21 y
  obtain ⟨_, _, _, _, _, _, _, _, _, _, e0, e1, _⟩ := idx_facts t
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 1152 + 1 * (y 1).val = (y 1).val; omega

theorem whole6 (c : Dev nD) (t : Fin cfg0.N) : iblk0 V c 6 t = (V c main_v23 : S1x1152.Idx → EReal) := by
  funext y
  show V c main_v23 (((cfg0.win 6).blk t).view.emb y) = V c main_v23 y
  obtain ⟨_, _, _, _, _, _, _, _, _, _, _, _, e0, e1, _⟩ := idx_facts t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1152 + 1 * (y 1).val = (y 1).val; omega

/-- The network of the seven arrays as the call finds them. -/
def G0 (c : Dev nD) : Cert.ReferenceIdeal.S200000x1152.Idx → EReal :=
  Net1 (V c main_v12) (V c main_v5) (V c main_v19) (V c main_v20) (V c main_v22) (V c main_v21) (V c main_v23)

/-- What point t writes back is block t of the network of the whole arrays. -/
theorem flushed0 (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S384x512) hz, View.ld_unit_zero (S := S1x512) hz,
    View.ld_unit_zero (S := S512x1152) hz, View.ld_unit_zero (S := S1x1152) hz]
  rw [whole3 V c t, whole4 V c t, whole5 V c t, whole6 V c t]
  funext j
  obtain ⟨_, _, _, _, _, _, _, _, _, _, _, _, _, _, e0, e1⟩ := idx_facts t
  exact (net1_block (rows0 V c t) (rows1 V c t) (rows2 V c t) _ _ _ _).read j (((cfg0.win 7).blk t).view.emb j)
    (by show win0_7.index t (0 : Fin 2) * 2000 + 1 * (j 0).val = 2000 * t.val + (j 0).val; omega)
    (by show win0_7.index t (1 : Fin 2) * 1152 + 1 * (j 1).val = (j 1).val; omega)

/-- An index of the output array is in point t's block iff its coordinates are in the block's ranges. -/
theorem mem_blk7 (t : Fin cfg0.N) (i : S200000x1152.Idx) :
    i ∈ ((cfg0.win 7).blk t).view.set ↔ ∀ a : Fin 2, win0_7.index t a * S2000x1152.size a ≤ (i a).val ∧ (i a).val < win0_7.index t a * S2000x1152.size a + S2000x1152.size a := by
  show i ∈ ((View.whole main_v24).slice (win0_7.rect t)).set ↔ _
  rw [View.set_slice_whole, Rect.mem_set_unit]
  exact Iff.rfl

/-- Every row of the output lies in the block of the point numbered by the row's 2000-block. -/
theorem cover7 (i : S200000x1152.Idx) :
    ∃ t : Fin cfg0.N, (cfg0.win 7).flush t = true ∧ i ∈ ((cfg0.win 7).blk t).view.set := by
  have hi0 : (i 0).val < 200000 := (i 0).isLt
  have hi1 : (i 1).val < 1152 := (i 1).isLt
  obtain ⟨t, ht⟩ : ∃ t : Fin cfg0.N, t.val = (i 0).val / 2000 :=
    ⟨⟨(i 0).val / 2000, lt_of_lt_of_eq (by omega : (i 0).val / 2000 < 100) N_0.symm⟩, rfl⟩
  refine ⟨t, flush0_7 t, ?_⟩
  rw [mem_blk7]
  obtain ⟨_, _, _, _, _, _, _, _, _, _, _, _, _, _, e0, e1⟩ := idx_facts t
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 1152 ≤ (i 1).val ∧ (i 1).val < win0_7.index t (1 : Fin 2) * 1152 + 1152; omega

/-- After the call the output array holds the network of the input arrays. -/
theorem final0 (c : Dev nD) : (dat0 V c).arrAt 7 cfg0.N = G0 V c :=
  (dat0 V c).arrAt_eq_of_cover 7 (G0 V c) (fun t _ => flushed0 V c t) cover7

end Cert.KernelIdeal.Region0

end
-- ==== Proof.Net2.lean ====
/-
  The second dense network of the message-passing step, one block of rows at a time.

  For every object the network takes its 512 pooled numbers, multiplies by a 512×512 matrix, adds a bias row, takes
  the maximum with 0, multiplies by a 512×128 matrix, adds a bias row and takes the maximum with 0. Every step acts
  on each row by itself, so what the kernel body computes from 2000 consecutive rows of the pooled matrix is the
  same 2000 rows of what the host program computes from all 100000 rows. No finiteness is needed.
-/
import proofs.«173834_j29996051595776_1_alg».proof.Proof.Gen.KernelIdeal.Skeleton
import proofs.«173834_j29996051595776_1_alg».proof.Proof.Gen.ReferenceIdeal.Read
import proofs.«173834_j29996051595776_1_alg».proof.Proof.LibBlockFormats
import proofs.«173834_j29996051595776_1_alg».proof.Proof.Net1

noncomputable section

namespace Cert.ReferenceIdeal.Bridge

open Idealize.ShloMosaic Idealize.ShloMosaic.ValueIdx Cert.Lib.DenseLayer
open Cert.ReferenceIdeal Cert.ReferenceIdeal.Gen Cert.ReferenceIdeal.Read

/-- The host's second two-layer network on all the rows, as a function of the pooled matrix, the two weight
    matrices and the two bias rows (each bias already a 1×n row). -/
def Net2 (Q : FVec Ideal S100000x512 .f32) (w3 : FVec Ideal S512x512 .f32) (r3 : FVec Ideal S1x512 .f32)
    (w4 : FVec Ideal S512x128 .f32) (r4 : FVec Ideal S1x128 .f32) : FVec Ideal S100000x128 .f32 :=
  maximumf (addf (Host.dotGeneral dot_S100000x512_S512x128_S100000x128_1_0_0_1_n_n none
      (maximumf (addf (Host.dotGeneral dot_S100000x512_S512x512_S100000x512_1_0_0_1_n_n none Q w3)
          (broadcastInDim S100000x512 ![0, 1] bcast_S1x512_S100000x512_0_1 r3))
        (val_main_call2_v0 (F := Ideal))) w4)
      (broadcastInDim S100000x128 ![0, 1] bcast_S1x128_S100000x128_0_1 r4))
    (val_main_call3_v0 (F := Ideal))

/-- The host program's first result is that network of its pooled matrix. -/
theorem net2_ref (x0 : FVec Ideal S100000x128 .f32) (x1 : FVec Ideal S200000x128 .f32) (x2 : IVec S200000x2 32)
    (x3 : FVec Ideal S384x512 .f32) (x4 : FVec Ideal S512 .f32) (x5 : FVec Ideal S512x1152 .f32) (x6 : FVec Ideal S1152 .f32)
    (x7 : FVec Ideal S512x512 .f32) (x8 : FVec Ideal S512 .f32) (x9 : FVec Ideal S512x128 .f32) (x10 : FVec Ideal S128 .f32) :
    val_main_v77 (F := Ideal) x0 x1 x2 x3 x4 x5 x6 x7 x8 x9 x10 =
      Net2 (val_main_v67 (F := Ideal) x0 x1 x2 x3 x4 x5 x6) x7 (val_main_v69 (F := Ideal) x8) x9 (val_main_v74 (F := Ideal) x10) := by
  unfold val_main_v77 val_main_v76 val_main_v73 val_main_v72 val_main_v71 val_main_v68 val_main_v70 val_main_v75 Net2
  rfl

theorem plain_k3 : Plain Cert.KernelIdeal.dot_S2000x512_S512x512_S2000x512_1_0_0_1_n_n := Plain.of_fields _ rfl rfl rfl rfl rfl rfl
theorem plain_k4 : Plain Cert.KernelIdeal.dot_S2000x512_S512x128_S2000x128_1_0_0_1_n_n := Plain.of_fields _ rfl rfl rfl rfl rfl rfl
theorem plain_r3 : Plain dot_S100000x512_S512x512_S100000x512_1_0_0_1_n_n := Plain.of_fields _ rfl rfl rfl rfl rfl rfl
theorem plain_r4 : Plain dot_S100000x512_S512x128_S100000x128_1_0_0_1_n_n := Plain.of_fields _ rfl rfl rfl rfl rfl rfl

theorem zero2_apply (i : S100000x512.Idx) : val_main_call2_v0 (F := Ideal) i = Ideal.ofBits .f32 0x00000000#32 :=
  (val_main_call2_v0_apply i).trans (val_main_call2_cst_apply _)
theorem zero3_apply (i : S100000x128.Idx) : val_main_call3_v0 (F := Ideal) i = Ideal.ofBits .f32 0x00000000#32 :=
  (val_main_call3_v0_apply i).trans (val_main_call3_cst_apply _)

/-- What the body computes from a block of rows of the pooled matrix is that block of rows of the network. -/
theorem net2_block {off : Nat} {p : FVec Ideal Cert.KernelIdeal.S2000x512 .f32} {Q : FVec Ideal S100000x512 .f32}
    (h : RowBlk off p Q)
    (w3 : FVec Ideal S512x512 .bf16) (r3 : FVec Ideal S1x512 .f32) (w4 : FVec Ideal S512x128 .bf16) (r4 : FVec Ideal S1x128 .f32) :
    RowBlk off (Cert.KernelIdeal.Gen.k1_pay1 (F := Ideal) p w3 r3 w4 r4) (Net2 Q w3 r3 w4 r4) := by
  have hn0 := RowBlk.narrow (ψ := .bf16) h Cert.KernelIdeal.Gen.bitsLt_bf16_f32
  have hm1 := RowBlk.matmulZero32 (φ₁ := .bf16) plain_k3 plain_r3 hn0 w3
  have hb1 : RowBlk off (broadcastTo Cert.KernelIdeal.S2000x512 r3 Cert.KernelIdeal.Gen.broadcasts_S1x512_S2000x512)
      (broadcastInDim S100000x512 ![0, 1] bcast_S1x512_S100000x512_0_1 r3) := RowBlk.bias r3 _ _
  have hz1 : RowBlk off (broadcast Cert.KernelIdeal.S2000x512 (Scalar.ofBits (F := Ideal) .f32 0x00000000#32)) (val_main_call2_v0 (F := Ideal)) :=
    RowBlk.const (Ideal.ofBits .f32 0x00000000#32) (fun _ => rfl) zero2_apply
  have hx1 := (hm1.add hb1).max hz1
  have hn1 := RowBlk.narrow (ψ := .bf16) hx1 Cert.KernelIdeal.Gen.bitsLt_bf16_f32
  have hm2 := RowBlk.matmulZero32 (φ₁ := .bf16) plain_k4 plain_r4 hn1 w4
  have hb2 : RowBlk off (broadcastTo Cert.KernelIdeal.S2000x128 r4 Cert.KernelIdeal.Gen.broadcasts_S1x128_S2000x128)
      (broadcastInDim S100000x128 ![0, 1] bcast_S1x128_S100000x128_0_1 r4) := RowBlk.bias r4 _ _
  have hz2 : RowBlk off (broadcast Cert.KernelIdeal.S2000x128 (Scalar.ofBits (F := Ideal) .f32 0x00000000#32)) (val_main_call3_v0 (F := Ideal)) :=
    RowBlk.const (Ideal.ofBits .f32 0x00000000#32) (fun _ => rfl) zero3_apply
  have hx2 := (hm2.add hb2).max hz2
  unfold Cert.KernelIdeal.Gen.k1_pay1 Net2
  simp only [shapeCast_self]
  exact hx2

end Cert.ReferenceIdeal.Bridge

end
-- ==== Proof.Region1.lean ====
/-
  The array the second pallas_call leaves: the second two-layer network of the call's five input arrays.

  Grid point t of the call reads rows 2000·t … 2000·t + 1999 of the pooled matrix, the whole weight matrices and
  bias rows, and writes rows 2000·t … 2000·t + 1999 of the 100000×128 output. What it writes is those rows of the
  network of the whole inputs, because each output row depends on the same row of the pooled matrix only. The fifty
  blocks of rows tile the output, so after the call the output array is the network of the input arrays as the
  call found them.
-/
import proofs.«173834_j29996051595776_1_alg».proof.Proof.Gen.KernelIdeal.Frame
import proofs.«173834_j29996051595776_1_alg».proof.Proof.Net2
import proofs.«173834_j29996051595776_1_alg».proof.Proof.LibRowRead
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Lib.DenseLayer Cert.ReferenceIdeal.Bridge

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows are at block (t, 0), the weights
    and biases at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is the block of rows of the pooled matrix that starts at row 2000·t. -/
theorem rows0 (c : Dev nD) (t : Fin cfg1.N) :
    RowBlk (2000 * t.val) (iblk1 V c 0 t) (V c main_v63 : Cert.ReferenceIdeal.S100000x512.Idx → EReal) :=
  RowBlk.of_read (fun y => ((cfg1.win 0).blk t).view.emb y)
    (fun y => by
      show win1_0.index t (0 : Fin 2) * 2000 + 1 * (y 0).val = 2000 * t.val + (y 0).val
      have := (idx_facts t).1; omega)
    (fun y => by
      show win1_0.index t (1 : Fin 2) * 512 + 1 * (y 1).val = (y 1).val
      have := (idx_facts t).2.1; omega)
    (fun y => rfl)

/-- The weight and bias windows hold their whole arrays at every point. -/
theorem whole1 (c : Dev nD) (t : Fin cfg1.N) : iblk1 V c 1 t = (V c main_v64 : S512x512.Idx → EReal) := by
  funext y
  show V c main_v64 (((cfg1.win 1).blk t).view.emb y) = V c main_v64 y
  obtain ⟨_, _, e0, e1, _⟩ := idx_facts t
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 512 + 1 * (y 1).val = (y 1).val; omega

theorem whole2 (c : Dev nD) (t : Fin cfg1.N) : iblk1 V c 2 t = (V c main_v66 : S1x512.Idx → EReal) := by
  funext y
  show V c main_v66 (((cfg1.win 2).blk t).view.emb y) = V c main_v66 y
  obtain ⟨_, _, _, _, e0, e1, _⟩ := idx_facts t
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega

theorem whole3 (c : Dev nD) (t : Fin cfg1.N) : iblk1 V c 3 t = (V c main_v65 : S512x128.Idx → EReal) := by
  funext y
  show V c main_v65 (((cfg1.win 3).blk t).view.emb y) = V c main_v65 y
  obtain ⟨_, _, _, _, _, _, e0, e1, _⟩ := idx_facts t
  refine congrArg _ (funext fun a => Fin.ext ?_)
  match a with
  | ⟨0, _⟩ => show win1_3.index t (0 : Fin 2) * 512 + 1 * (y 0).val = (y 0).val; omega
  | ⟨1, _⟩ => show win1_3.index t (1 : Fin 2) * 128 + 1 * (y 1).val = (y 1).val; omega

theorem whole4 (c : Dev nD) (t : Fin cfg1.N) : iblk1 V c 4 t = (V c main_v67 : S1x128.Idx → EReal) := by
  funext y
  show V c main_v67 (((cfg1.win 4).blk t).view.emb y) = V c main_v67 y
  obtain ⟨_, _, _, _, _, _, _, _, e0, e1, _⟩ := idx_facts t
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The network of the five arrays as the call finds them. -/
def G1 (c : Dev nD) : Cert.ReferenceIdeal.S100000x128.Idx → EReal :=
  Net2 (V c main_v63) (V c main_v64) (V c main_v66) (V c main_v65) (V c main_v67)

/-- What point t writes back is block t of the network of the whole arrays. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x512) hz, View.ld_unit_zero (S := S512x512) hz, View.ld_unit_zero (S := S1x512) hz,
    View.ld_unit_zero (S := S512x128) hz, View.ld_unit_zero (S := S1x128) hz]
  rw [whole1 V c t, whole2 V c t, whole3 V c t, whole4 V c t]
  funext j
  obtain ⟨_, _, _, _, _, _, _, _, _, _, e0, e1⟩ := idx_facts t
  exact (net2_block (rows0 V c t) _ _ _ _).read j (((cfg1.win 5).blk t).view.emb j)
    (by show win1_5.index t (0 : Fin 2) * 2000 + 1 * (j 0).val = 2000 * t.val + (j 0).val; omega)
    (by show win1_5.index t (1 : Fin 2) * 128 + 1 * (j 1).val = (j 1).val; omega)

/-- An index of the output array is in point t's block iff its coordinates are in the block's ranges. -/
theorem mem_blk5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v68).slice (win1_5.rect t)).set ↔ _
  rw [View.set_slice_whole, Rect.mem_set_unit]
  exact Iff.rfl

/-- Every row of the output lies in the block of the point numbered by the row's 2000-block. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  refine ⟨t, flush1_5 t, ?_⟩
  rw [mem_blk5]
  obtain ⟨_, _, _, _, _, _, _, _, _, _, e0, e1⟩ := idx_facts t
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After the call the output array holds the network of the input arrays. -/
theorem final1 (c : Dev nD) : (dat1 V c).arrAt 5 cfg1.N = G1 V c :=
  (dat1 V c).arrAt_eq_of_cover 5 (G1 V c) (fun t _ => flushed1 V c t) cover5

end Cert.KernelIdeal.Region1

end
-- ==== Proof.KValue.lean ====
/-
  The idealized kernel program's two results as the reference's functions of the arguments.

  The first call's output array is the first network of its input arrays, which are the reference's gathered
  rows, the predicate vectors, the weights and the bias rows: the reference's value after its second rectifier.
  The second result is the middle band of that array. The pooled matrix is the reference's pooling of that array,
  and the second call's output array is the second network of the pooled matrix: the reference's first result.
-/
import proofs.«173834_j29996051595776_1_alg».proof.Proof.KRun
import proofs.«173834_j29996051595776_1_alg».proof.Proof.Entry0
import proofs.«173834_j29996051595776_1_alg».proof.Proof.Entry1
import proofs.«173834_j29996051595776_1_alg».proof.Proof.Region0
import proofs.«173834_j29996051595776_1_alg».proof.Proof.Region1

set_option maxRecDepth 16384

noncomputable section

namespace Cert.KernelIdeal.KValue

open Cert.KernelIdeal Cert.KernelIdeal.Gen
open Idealize.ShloMosaic Idealize.ShloMosaic.TcCoe Idealize.SL.Sem
open Cert.ReferenceIdeal.Bridge

variable (m : (ℓ : Loc nD τ sig) → Buf (Elt Ideal) ℓ) (ρ : Dev nD → PrngReg) (c : Dev nD)

/-- The reference's value after its second rectifier, of this program's arguments. -/
abbrev newT : Cert.ReferenceIdeal.S200000x1152.Idx → EReal :=
  Cert.ReferenceIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The first call's output array is that value. -/
theorem first_call : (V2 m ρ c main_v24 : Cert.ReferenceIdeal.S200000x1152.Idx → EReal) = newT m c := by
  show W2 m ρ c (Proc.devRef .tc (Pipeline.arrRef spec0 7)) = _
  rw [W2_arr m ρ c 7, Region0.final0 (V1 m ρ) c]
  unfold Region0.G0
  rw [Entry0.v12 m ρ c, Entry0.v5 m ρ c, Entry0.v19 m ρ c, Entry0.v20 m ρ c, Entry0.v22 m ρ c, Entry0.v21 m ρ c, Entry0.v23 m ρ c]
  exact (net1_ref _ _ _ _ _ _ _).symm

/-- The program's first result: the reference's. -/
theorem res0 : (W4 m ρ c (Proc.devRef .tc main_v68) : Cert.ReferenceIdeal.S100000x128.Idx → EReal) =
    Cert.ReferenceIdeal.Read.val_main_v77 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  show W4 m ρ c (Proc.devRef .tc (Pipeline.arrRef spec1 5)) = _
  rw [W4_arr m ρ c 5, Region1.final1 (V3 m ρ) c]
  unfold Region1.G1
  rw [Entry1.v63 m ρ c, Entry1.v64 m ρ c, Entry1.v66 m ρ c, Entry1.v65 m ρ c, Entry1.v67 m ρ c, first_call m ρ c]
  rw [net2_ref, pool_ref]

/-- The program's second result: the reference's. -/
theorem res1 : (W4 m ρ c (Proc.devRef .tc main_v26) : Cert.ReferenceIdeal.S200000x128.Idx → EReal) =
    Cert.ReferenceIdeal.Read.val_main_v30 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [W4_of_ne m ρ c main_v26 (by decide)]
  show V3 m ρ c main_v26 = _
  rw [Entry1.v26 m ρ c, first_call m ρ c, mid_ref]

/-- Every weakly fair execution of the program terminates with its two results at the reference's functions of
    its arguments, and the arguments as launched. -/
theorem run : θ_run defs (onTc (τ := τ) (main (F := Ideal))) ⟨m, fun _ => 0, ρ⟩ (fun r => ∀ c : Dev nD,
      r.2.mem ((c.tc : Thread nD τ).loc main_v68) =
        Cert.ReferenceIdeal.Read.val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
      ∧ r.2.mem ((c.tc : Thread nD τ).loc main_v26) =
        Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (res0 m ρ c), (h c).2.1.trans (res1 m ρ c), (h c).2.2⟩)
    (Cert.KernelIdeal.RunValues.run m ρ)

end Cert.KernelIdeal.KValue

end
-- ==== Proof.lean ====
/-
  Message passing over a graph of 100000 objects and 200000 edges: for every edge a two-layer network of the
  subject's, the predicate's and the object's vectors (128 numbers each, side by side), whose 1152 outputs are a
  new subject part (512), a new predicate vector (128, the second result) and a new object part (512); the
  subject and object parts are summed into their objects' rows and divided by the number of times each object
  occurs (at least 1); a second two-layer network of each object's pooled row is the first result.

  The kernel program computes the two networks in two pallas_calls, 2000 rows per grid point, with the gathers,
  the scatter-additions and the division left to host operations between them; the reference program does
  everything with host operations. At the extended reals the two programs hold the same numbers:

  * a change of float format is the identity, so the kernel's bf16 copies of the inputs and weights are the
    inputs and weights;
  * every step of a network acts on each row by itself, and a matrix unit's product into a zero accumulator is the
    same sum of products as the host's dot_general, so a grid point's block of rows is that block of rows of the
    host's network of the whole arrays (Net1.lean, Net2.lean), and the blocks tile the output (Region0.lean,
    Region1.lean);
  * a bias vector reshaped to a 1×n row is the vector broadcast along a new unit axis (Entry0.lean, Entry1.lean);
  * the gathers, the column bands, the two scatter-additions, the count and the division are the same host
    operations in both programs, applied to equal arrays (Pool.lean, Entry1.lean).

  No law used here needs a finite entry, so the precondition is never opened. The three frames are the generated
  ones (the reference's is its generated run with the results dropped); the kernel and its idealization differ by
  no rewrite, so the fourth claim is trivial.
-/
import proofs.«173834_j29996051595776_1_alg».proof.Defs
import proofs.«173834_j29996051595776_1_alg».proof.Proof.Gen.Kernel
import proofs.«173834_j29996051595776_1_alg».proof.Proof.Gen.Kernel.Frame
import proofs.«173834_j29996051595776_1_alg».proof.Proof.Gen.KernelIdeal
import proofs.«173834_j29996051595776_1_alg».proof.Proof.Gen.KernelIdeal.Frame
import proofs.«173834_j29996051595776_1_alg».proof.Proof.Gen.ReferenceIdeal
import proofs.«173834_j29996051595776_1_alg».proof.Proof.Gen.Pre_finite_inputs
import proofs.«173834_j29996051595776_1_alg».proof.Proof.Gen.ReferenceIdeal.Run
import proofs.«173834_j29996051595776_1_alg».proof.Proof.Gen.ReferenceIdeal.Read
import proofs.«173834_j29996051595776_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two functions of the (agreeing) arguments. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v77_eq, e0, e1, e2, e3, e4, e5, e6, e7, e8, e9, e10]
  · obtain ⟨e0, e1, e2, e3, e4, e5, e6, _⟩ := hagree c
    rw [Cert.ReferenceIdeal.Read.val_main_v30_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
